-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S256x256 : Shape := ⟨2, ![256, 256]⟩
abbrev S256 : Shape := ⟨1, ![256]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S100000x128 .f32) (main_arg1 : FVec F S256x256 .f32) (main_arg2 : FVec F S256 .f32) (main_arg3 : FVec F S256 .f32) (main_arg4 : FVec F S256 .f32) (main_arg5 : IVec S600000 32) (main_arg6 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S100000x128 : Shape := ⟨2, ![100000, 128]⟩
abbrev S256x256 : Shape := ⟨2, ![256, 256]⟩
abbrev S256 : Shape := ⟨1, ![256]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S128x256 : Shape := ⟨2, ![128, 256]⟩
abbrev S1x256 : Shape := ⟨2, ![1, 256]⟩
abbrev S100000x256 : Shape := ⟨2, ![100000, 256]⟩
abbrev S2000x128 : Shape := ⟨2, ![2000, 128]⟩
abbrev S2000x1 : Shape := ⟨2, ![2000, 1]⟩
abbrev S2000x256 : Shape := ⟨2, ![2000, 256]⟩
abbrev S2000 : Shape := ⟨1, ![2000]⟩

abbrev nBuf : Space → Nat
  | .hbm => 35
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S600000, .i32⟩
  | .hbm, ⟨6, _⟩ => ⟨S600000, .i32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S600000x128, .f32⟩
  | .hbm, ⟨16, _⟩ => ⟨S_, .f32⟩
  | .hbm, ⟨17, _⟩ => ⟨S100000x128, .f32⟩
  | .hbm, ⟨18, _⟩ => ⟨S600000x1, .i32⟩
  | .hbm, ⟨19, _⟩ => ⟨S100000x128, .f32⟩
  | .hbm, ⟨20, _⟩ => ⟨S_, .f32⟩
  | .hbm, ⟨21, _⟩ => ⟨S600000, .f32⟩
  | .hbm, ⟨22, _⟩ => ⟨S_, .f32⟩
  | .hbm, ⟨23, _⟩ => ⟨S100000, .f32⟩
  | .hbm, ⟨24, _⟩ => ⟨S600000x1, .i32⟩
  | .hbm, ⟨25, _⟩ => ⟨S100000, .f32⟩
  | .hbm, ⟨26, _⟩ => ⟨S100000x1, .f32⟩
  | .hbm, ⟨27, _⟩ => ⟨S128x256, .f32⟩
  | .hbm, ⟨28, _⟩ => ⟨S128x256, .bf16⟩
  | .hbm, ⟨29, _⟩ => ⟨S128x256, .f32⟩
  | .hbm, ⟨30, _⟩ => ⟨S128x256, .bf16⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S100000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x256, .bf16⟩
  | .local _ .vmem, ⟨7, _⟩ => ⟨S128x256, .bf16⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S2000x256, .f32⟩
  | .local _ .vmem, ⟨12, _⟩ => ⟨S2000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  slices_S256x256_S128x256_0_0 : S256x256.Slices ![0, 0] S128x256
  bitsLt_bf16_f32 : FTy.bits .bf16 < FTy.bits .f32
  slices_S256x256_S128x256_128_0 : S256x256.Slices ![128, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x256.size a ≤ S100000x256.size a
  hwx0_8 : ∀ i : grid0.Coords, EltTy.bits .f32 = 32 ∨ (Rect.block (s := S100000x256) S2000x256.size (cc0_transform_8 i) (hinb0_8 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S2000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S256x256 : Shape := ⟨2, ![256, 256]⟩
abbrev S256 : Shape := ⟨1, ![256]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩

abbrev nBuf : Space → Nat
  | .hbm => 69
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S600000, .i32⟩
  | .hbm, ⟨6, _⟩ => ⟨S600000, .i32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S600000x128, .f32⟩
  | .hbm, ⟨16, _⟩ => ⟨S_, .f32⟩
  | .hbm, ⟨17, _⟩ => ⟨S100000x128, .f32⟩
  | .hbm, ⟨18, _⟩ => ⟨S600000x1, .i32⟩
  | .hbm, ⟨19, _⟩ => ⟨S100000x128, .f32⟩
  | .hbm, ⟨20, _⟩ => ⟨S_, .f32⟩
  | .hbm, ⟨21, _⟩ => ⟨S600000, .f32⟩
  | .hbm, ⟨22, _⟩ => ⟨S_, .f32⟩
  | .hbm, ⟨23, _⟩ => ⟨S100000, .f32⟩
  | .hbm, ⟨24, _⟩ => ⟨S600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S100000x256, .f32⟩
  | .hbm, ⟨33, _⟩ => ⟨S100000x256, .f32⟩
  | .hbm, ⟨34, _⟩ => ⟨S1x256, .f32⟩
  | .hbm, ⟨35, _⟩ => ⟨S100000x256, .f32⟩
  | .hbm, ⟨36, _⟩ => ⟨S100000x256, .f32⟩
  | .hbm, ⟨37, _⟩ => ⟨S_, .f32⟩
  | .hbm, ⟨38, _⟩ => ⟨S100000x256, .f32⟩
  | .hbm, ⟨39, _⟩ => ⟨S100000x256, .f32⟩
  | .hbm, ⟨40, _⟩ => ⟨S_, .f32⟩
  | .hbm, ⟨41, _⟩ => ⟨S100000, .f32⟩
  | .hbm, ⟨42, _⟩ => ⟨S100000x1, .f32⟩
  | .hbm, ⟨43, _⟩ => ⟨S_, .f32⟩
  | .hbm, ⟨44, _⟩ => ⟨S100000x1, .f32⟩
  | .hbm, ⟨45, _⟩ => ⟨S100000x1, .f32⟩
  | .hbm, ⟨46, _⟩ => ⟨S100000x256, .f32⟩
  | .hbm, ⟨47, _⟩ => ⟨S100000x256, .f32⟩
  | .hbm, ⟨48, _⟩ => ⟨S100000x256, .f32⟩
  | .hbm, ⟨49, _⟩ => ⟨S_, .f32⟩
  | .hbm, ⟨50, _⟩ => ⟨S100000, .f32⟩
  | .hbm, ⟨51, _⟩ => ⟨S100000x1, .f32⟩
  | .hbm, ⟨52, _⟩ => ⟨S_, .f32⟩
  | .hbm, ⟨53, _⟩ => ⟨S100000x1, .f32⟩
  | .hbm, ⟨54, _⟩ => ⟨S100000x1, .f32⟩
  | .hbm, ⟨55, _⟩ => ⟨S100000x256, .f32⟩
  | .hbm, ⟨56, _⟩ => ⟨S100000x256, .f32⟩
  | .hbm, ⟨57, _⟩ => ⟨S_, .f32⟩
  | .hbm, ⟨58, _⟩ => ⟨S100000x1, .f32⟩
  | .hbm, ⟨59, _⟩ => ⟨S100000x1, .f32⟩
  | .hbm, ⟨60, _⟩ => ⟨S100000x1, .f32⟩
  | .hbm, ⟨61, _⟩ => ⟨S100000x256, .f32⟩
  | .hbm, ⟨62, _⟩ => ⟨S100000x256, .f32⟩
  | .hbm, ⟨63, _⟩ => ⟨S1x256, .f32⟩
  | .hbm, ⟨64, _⟩ => ⟨S100000x256, .f32⟩
  | .hbm, ⟨65, _⟩ => ⟨S100000x256, .f32⟩
  | .hbm, ⟨66, _⟩ => ⟨S1x256, .f32⟩
  | .hbm, ⟨67, _⟩ => ⟨S100000x256, .f32⟩
  | .hbm, ⟨68, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  reducesTo_S100000x256_S100000_d1 : S100000x256.ReducesTo [1] S100000
  h_S_ : 0 < S_.numel
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x256_S256x256_S100000x256_1_0_0_1_n_n_wf : DotDims.WF S100000x256 S256x256 S100000x256 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.LibConcatColumns.lean ====
/-
  Two arrays laid side by side.

  An `[m, n₁]` array and an `[m, n₂]` array joined along their second axis give an `[m, N]` array whose entry at
  `(p, j)` is the first array's entry at `(p, j)` when `j` is below `n₁`, and the second array's entry at
  `(p, j − n₁)` otherwise.
-/
import Idealize.ShloMosaic.Lib.Pipeline.Value
import Idealize.ShloMosaic.Lib.ValueIdx

namespace Cert.LibConcatColumns

open Idealize.ShloMosaic Idealize.ShloMosaic.ValueIdx

variable {α : Type}

/-- Joined along the second axis, at a column `j` of the first piece (`k`, with the same value) the joined array reads
    the first piece. -/
theorem concat_cols_left {m n₁ n₂ N : ℕ} (u : (⟨2, ![m, n₁]⟩ : Shape).Idx → α) (v : (⟨2, ![m, n₂]⟩ : Shape).Idx → α)
    (h : Shape.Concatenates [⟨2, ![m, n₁]⟩, ⟨2, ![m, n₂]⟩] ⟨2, ![m, N]⟩ 1) (p : Fin m) (j : Fin N) (k : Fin n₁)
    (hk : k.val = j.val) :
    concatenate ⟨2, ![m, N]⟩ 1 [⟨⟨2, ![m, n₁]⟩, u⟩, ⟨⟨2, ![m, n₂]⟩, v⟩] h (ix2 p j) = u (ix2 p k) :=
  concatenate_pair_apply_left 1 u v h (ix2 p j) rfl (ix2 p k) fun b =>
    match b with
    | ⟨0, _⟩ => rfl
    | ⟨1, _⟩ => hk

/-- Joined along the second axis, at a column `j` past the first piece (`k + n₁ = j`) the joined array reads the
    second piece at column `k`. -/
theorem concat_cols_right {m n₁ n₂ N : ℕ} (u : (⟨2, ![m, n₁]⟩ : Shape).Idx → α) (v : (⟨2, ![m, n₂]⟩ : Shape).Idx → α)
    (h : Shape.Concatenates [⟨2, ![m, n₁]⟩, ⟨2, ![m, n₂]⟩] ⟨2, ![m, N]⟩ 1) (p : Fin m) (j : Fin N) (k : Fin n₂)
    (hk : k.val + n₁ = j.val) :
    concatenate ⟨2, ![m, N]⟩ 1 [⟨⟨2, ![m, n₁]⟩, u⟩, ⟨⟨2, ![m, n₂]⟩, v⟩] h (ix2 p j) = v (ix2 p k) :=
  concatenate_pair_apply_right 1 u v h (ix2 p j) rfl rfl (ix2 p k)
    (fun b hb =>
      match b, hb with
      | ⟨0, _⟩, _ => rfl
      | ⟨1, _⟩, hb => absurd rfl hb)
    hk

end Cert.LibConcatColumns
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibRowWise.lean ====
/-
  Operations that act on each row of an [m, n] array by itself, read at an entry, on the extended reals.

  For an array Z with m rows and n columns:
  * a length-n vector laid out as a [1, n] row and repeated down the m rows reads, at (a, b), the vector at b
    (`biasRow_apply`); a length-m vector laid out as an [m, 1] column and repeated across the n columns reads, at
    (a, b), the vector at a (`column_apply`);
  * reducing over the column axis inserts the column coordinate at position 1 (`lift_row`), so the host's maximum
    and sum over that axis read, at row a, the fold of max (the sum) over the row's n entries
    (`hostRowMax_apply`, `hostRowSum_apply`), and so do the vector reductions (`vecRowMax_apply`, `vecRowSum_apply`);
  * `logSoftmaxRow y q = (y q - max y) - log (Σ_k exp (y k - max y))` is the logarithm of the softmax of one row, and
    the host's chain of operations for it reads, at (a, b), that function of row a (`hostLogSoftmax_apply`);
  * the host's sum of an array and a bias row, clamped below at zero, reads at (a, b) max (Z(a, b) + v(b), 0)
    (`hostBiasRelu_apply`).
  Nothing here depends on m: a block of rows and the whole array are read by the same lemma.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowWise

open Idealize.ShloMosaic Idealize.ShloMosaic.ValueIdx

variable {α : Type}

/-- A vector as a row repeated down the rows, the host way, read at an entry. -/
theorem biasRow_apply {m n : ℕ} (v : (⟨1, ![n]⟩ : Shape).Idx → α)
    (g1 : (⟨1, ![n]⟩ : Shape).BroadcastsInDim ⟨2, ![1, n]⟩ ![1])
    (g2 : (⟨2, ![1, n]⟩ : Shape).BroadcastsInDim ⟨2, ![m, n]⟩ ![0, 1]) (a : Fin m) (b : Fin n) :
    broadcastInDim ⟨2, ![m, n]⟩ ![0, 1] g2 (broadcastInDim ⟨2, ![1, n]⟩ ![1] g1 v) (ix2 a b) = v (ix1 b) := by
  have hb : b.val = if n = 1 then 0 else b.val := by
    split
    · have := b.isLt; omega
    · rfl
  have hk2 : ∀ ax : Fin 2, ((ix2 (0 : Fin 1) b : (⟨2, ![1, n]⟩ : Shape).Idx) ax).val
      = if (⟨2, ![1, n]⟩ : Shape).size ax = 1 then 0 else ((ix2 a b : (⟨2, ![m, n]⟩ : Shape).Idx) ((![0, 1] : Fin 2 → Fin 2) ax)).val := fun ax =>
    match ax with
    | ⟨0, _⟩ => rfl
    | ⟨1, _⟩ => hb
  have hk1 : ∀ ax : Fin 1, ((ix1 b : (⟨1, ![n]⟩ : Shape).Idx) ax).val
      = if (⟨1, ![n]⟩ : Shape).size ax = 1 then 0 else ((ix2 (0 : Fin 1) b : (⟨2, ![1, n]⟩ : Shape).Idx) ((![1] : Fin 1 → Fin 2) ax)).val := fun ax =>
    match ax with
    | ⟨0, _⟩ => hb
  rw [broadcastInDim_apply _ g2 _ (ix2 a b) (ix2 (0 : Fin 1) b) hk2, broadcastInDim_apply _ g1 v (ix2 (0 : Fin 1) b) (ix1 b) hk1]

/-- An [m, 1] column repeated across the n columns, the host way, reads at (a, b) the column at row a. -/
theorem colSpread_apply {m n : ℕ} (w : (⟨2, ![m, 1]⟩ : Shape).Idx → α)
    (g2 : (⟨2, ![m, 1]⟩ : Shape).BroadcastsInDim ⟨2, ![m, n]⟩ ![0, 1]) (a : Fin m) (b : Fin n) :
    broadcastInDim ⟨2, ![m, n]⟩ ![0, 1] g2 w (ix2 a b) = w (ix2 a (0 : Fin 1)) := by
  have ha : a.val = if m = 1 then 0 else a.val := by
    split
    · have := a.isLt; omega
    · rfl
  have hk2 : ∀ ax : Fin 2, ((ix2 a (0 : Fin 1) : (⟨2, ![m, 1]⟩ : Shape).Idx) ax).val
      = if (⟨2, ![m, 1]⟩ : Shape).size ax = 1 then 0 else ((ix2 a b : (⟨2, ![m, n]⟩ : Shape).Idx) ((![0, 1] : Fin 2 → Fin 2) ax)).val := fun ax =>
    match ax with
    | ⟨0, _⟩ => ha
    | ⟨1, _⟩ => rfl
  rw [broadcastInDim_apply _ g2 _ (ix2 a b) (ix2 a (0 : Fin 1)) hk2]

/-- A length-m vector laid out as an [m, 1] column, the host way, reads at (a, 0) the vector at a. -/
theorem colLift_apply {m : ℕ} (v : (⟨1, ![m]⟩ : Shape).Idx → α)
    (g1 : (⟨1, ![m]⟩ : Shape).BroadcastsInDim ⟨2, ![m, 1]⟩ ![0]) (a : Fin m) :
    broadcastInDim ⟨2, ![m, 1]⟩ ![0] g1 v (ix2 a (0 : Fin 1)) = v (ix1 a) := by
  have ha : a.val = if m = 1 then 0 else a.val := by
    split
    · have := a.isLt; omega
    · rfl
  have hk1 : ∀ ax : Fin 1, ((ix1 a : (⟨1, ![m]⟩ : Shape).Idx) ax).val
      = if (⟨1, ![m]⟩ : Shape).size ax = 1 then 0 else ((ix2 a (0 : Fin 1) : (⟨2, ![m, 1]⟩ : Shape).Idx) ((![0] : Fin 1 → Fin 2) ax)).val := fun ax =>
    match ax with
    | ⟨0, _⟩ => ha
  rw [broadcastInDim_apply _ g1 v (ix2 a (0 : Fin 1)) (ix1 a) hk1]

/-- A vector as a column repeated across the columns, the host way, read at an entry. -/
theorem column_apply {m n : ℕ} (v : (⟨1, ![m]⟩ : Shape).Idx → α)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (broadcastInDim ⟨2, ![m, 1]⟩ ![0] g1 v) (ix2 a b) = v (ix1 a) := by
  rw [colSpread_apply, colLift_apply]

/-- Over row a, the index with column coordinate k inserted is (a, k). -/
theorem lift_row {m n : ℕ} (h : (⟨2, ![m, n]⟩ : Shape).Reduces [1] ⟨1, ![m]⟩) (a : Fin m)
    (k : Fin ((⟨2, ![m, n]⟩ : Shape).size 1)) :
    h.lift (ix1 a) k = ix2 a (k : Fin n) := by
  funext c
  apply Fin.ext
  rw [Shape.Reduces.lift_val]
  unfold Shape.Reduces.liftVal
  match c with
  | ⟨0, _⟩ => rfl
  | ⟨1, _⟩ => rfl

/-- The host's maximum over the column axis, at row a: the fold of max over the row's entries. -/
theorem hostRowMax_apply {m n : ℕ} (Z : FVec Ideal ⟨2, ![m, n]⟩ .f32) (init : BitVec 32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduce FloatOps.maximumf Z (constant ⟨0, ![]⟩ .f32 init) h' hu (ix1 a)
      = (Finset.univ : Finset (Fin n)).fold max (Ideal.ofBits .f32 init) (fun k => Z (ix2 a k)) := by
  rw [Host.reduce_eq_fold_single FloatOps.maximumf Z _ h' h hu (ix1 a)]
  have e : (Z ∘ h.lift (ix1 a)) = fun k : Fin n => Z (ix2 a k) := funext fun k => congrArg Z (lift_row h a k)
  rw [e]
  rfl

/-- The host's sum over the column axis from zero, at row a: the sum of the row's entries. -/
theorem hostRowSum_apply {m n : ℕ} (Z : FVec Ideal ⟨2, ![m, n]⟩ .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduceAdd Z (constant ⟨0, ![]⟩ .f32 0x00000000#32) h' hu (ix1 a) = ∑ k : Fin n, Z (ix2 a k) := by
  show Ideal.hostReduceAdd h' Z (Ideal.ofBits .f32 0x00000000#32) (ix1 a) = _
  rw [Ideal.hostReduceAdd_single h' h, Ideal.ofBits_zero_f32, zero_add]
  exact Finset.sum_congr rfl fun k _ => congrArg Z (lift_row h a k)

/-- A vector maximum over the column axis, at row a: the fold of max over the row's entries. -/
theorem vecRowMax_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.maximumf.neutral .f32 hφ) (a : Fin m) :
    multiReduction .maximumf [1] ⟨1, ![m]⟩ Z acc h hφ hacc (ix1 a)
      = (Finset.univ : Finset (Fin n)).fold max (Ideal.ofBits .f32 acc) (fun k => Z (ix2 a k)) := by
  rw [Ideal.multiReduction_maximumf_single]
  have e : (Z ∘ h.lift (ix1 a)) = fun k : Fin n => Z (ix2 a k) := funext fun k => congrArg Z (lift_row h a k)
  rw [e]
  rfl

/-- A vector sum over the column axis, at row a: the sum of the row's entries. -/
theorem vecRowSum_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.add.neutral .f32 hφ) (a : Fin m) :
    multiReduction .add [1] ⟨1, ![m]⟩ Z acc h hφ hacc (ix1 a) = ∑ k : Fin n, Z (ix2 a k) := by
  rw [Ideal.multiReduction_add_single]
  exact Finset.sum_congr rfl fun k _ => congrArg Z (lift_row h a k)

/-- The largest entry of a row (from -∞, kept as its f32 word). -/
def rowMax {n : ℕ} (y : Fin n → EReal) : EReal :=
  (Finset.univ : Finset (Fin n)).fold max (Ideal.ofBits .f32 0xFF800000#32) y

/-- The logarithm of the softmax of one row, at column q. -/
def logSoftmaxRow {n : ℕ} (y : Fin n → EReal) (q : Fin n) : EReal :=
  (y q - rowMax y) - Ideal.log (∑ k : Fin n, Ideal.exp (y k - rowMax y))

/-- The f32 word of -∞ is neutral for the maximum of extended reals. -/
theorem max_neg_inf (z : EReal) : max (Ideal.ofBits .f32 0xFF800000#32) z = z := by
  have hb : Ideal.ofBits .f32 0xFF800000#32 = (⊥ : EReal) := by simp [Ideal.ofBits, Ideal.ieee]
  rw [hb]; exact max_bot_left z

/-- The host's log-softmax over the column axis: the row maximum from -∞ (and once more against -∞), subtracted;
    the exponentials summed from zero; the logarithm of the sum subtracted. -/
def hostLogSoftmax {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (hu : 0 < (⟨0, ![]⟩ : Shape).numel)
    (Z : FVec Ideal ⟨2, ![m, n]⟩ .f32) : FVec Ideal ⟨2, ![m, n]⟩ .f32 :=
  subf
    (subf Z (broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu)))))
    (broadcastInDim ⟨2, ![m, n]⟩ ![0, 1] g2 (Host.log (broadcastInDim ⟨2, ![m, 1]⟩ ![0] g1
      (Host.reduceAdd
        (Host.exp (subf Z (broadcastInDim ⟨2, ![m, n]⟩ ![0, 1] g2 (broadcastInDim ⟨2, ![m, 1]⟩ ![0] g1
          (maximumf (broadcastInDim ⟨1, ![m]⟩ ![] gN (constant (F := Ideal) ⟨0, ![]⟩ .f32 0xFF800000#32))
            (Host.reduce FloatOps.maximumf Z (constant (F := Ideal) ⟨0, ![]⟩ .f32 0xFF800000#32) h' hu))))))
        (constant (F := Ideal) ⟨0, ![]⟩ .f32 0x00000000#32) h' hu))))

/-- The maximum the host subtracts, repeated across the columns, reads at (a, b) the largest entry of row a. -/
theorem hostShift_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu))) (ix2 a b)
      = rowMax (fun k => Z (ix2 a k)) := by
  rw [column_apply]
  show max (Ideal.ofBits .f32 0xFF800000#32)
      (Host.reduce FloatOps.maximumf Z (constant (F := Ideal) ⟨0, ![]⟩ .f32 0xFF800000#32) h' hu (ix1 a)) = _
  rw [max_neg_inf, hostRowMax_apply Z _ h' h hu a]
  rfl

/-- The logarithm of a column vector, taken on the [m, 1] column and then repeated across the columns, reads at
    (a, b) the logarithm of the vector at a. -/
theorem logColumn_apply {m n : ℕ} (S : FVec Ideal ⟨1, ![m]⟩ .f32)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (Host.log (broadcastInDim ⟨2, ![m, 1]⟩ ![0] g1 S)) (ix2 a b)
      = Ideal.log (S (ix1 a)) := by
  rw [colSpread_apply]
  show Ideal.log (broadcastInDim ⟨2, ![m, 1]⟩ ![0] g1 S (ix2 a (0 : Fin 1))) = _
  rw [colLift_apply]

/-- The host's log-softmax reads, at (a, b), the log-softmax of row a at column b. -/
theorem hostLogSoftmax_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    hostLogSoftmax gN g1 g2 h' hu Z (ix2 a b) = logSoftmaxRow (fun k => Z (ix2 a k)) b := by
  unfold hostLogSoftmax logSoftmaxRow
  show (Z (ix2 a b) - _) - _ = _
  rw [hostShift_apply gN g1 g2 h' h hu Z a b, logColumn_apply, hostRowSum_apply _ h' h hu a]
  refine congrArg (fun s => (Z (ix2 a b) - rowMax (fun k => Z (ix2 a k))) - Ideal.log s) ?_
  refine Finset.sum_congr rfl fun k _ => ?_
  show Ideal.exp (Z (ix2 a k) - _) = _
  rw [hostShift_apply gN g1 g2 h' h hu Z a k]

/-- The host's sum of an array and a bias row, clamped below at zero, at an entry. -/
theorem hostBiasRelu_apply {m n : ℕ} (Z : FVec Ideal ⟨2, ![m, n]⟩ .f32) (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (g0 : (⟨0, ![]⟩ : Shape).BroadcastsInDim ⟨2, ![m, n]⟩ ![]) (a : Fin m) (b : Fin n) :
    maximumf (addf Z (broadcastInDim ⟨2, ![m, n]⟩ ![0, 1] g2 (broadcastInDim ⟨2, ![1, n]⟩ ![1] g1 v)))
        (broadcastInDim ⟨2, ![m, n]⟩ ![] g0 (constant (F := Ideal) ⟨0, ![]⟩ .f32 0x00000000#32)) (ix2 a b)
      = max (Z (ix2 a b) + v (ix1 b)) (Ideal.ofBits .f32 0x00000000#32) := by
  show max (Z (ix2 a b) + broadcastInDim ⟨2, ![m, n]⟩ ![0, 1] g2 (broadcastInDim ⟨2, ![1, n]⟩ ![1] g1 v) (ix2 a b)) _ = _
  rw [biasRow_apply]
  rfl

end Cert.RowWise

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibLayerNorm.lean ====
/-
  Layer normalisation of the rows of an [m, n] array, read at an entry, on the extended reals.

  For one row h of n entries, a divisor c (the row length, as the program spells it) and a shift e, write
  μ = (Σ_k h k) / c for the row's mean and σ² = (Σ_k (h k − μ)²) / c for its variance; the normalised entry at column q,
  scaled by g and shifted by β, is (h q − μ) · (σ² + e)^(−1/2) · g + β (`normEntry`). Division and the inverse square
  root are the exact operations of the extended reals, so the formula is total: nothing is assumed finite.

  Two programs compute it and both read, at entry (a, b), `normEntry` of row a:
  * the vector chain of a block — a row sum from zero kept as an [m, 1] column, divided by the splat of c, spread across
    the columns and subtracted; the squares summed the same way; the shift added; the inverse square root spread and
    multiplied in — read one entry at a time (`vecNorm_entry`: the scale and the offset enter as the two numbers at the
    entry, wherever the program took them from);
  * the host's chain (`hostLayerNorm`): row sums from zero, made columns, divided by a column of c, spread across the
    columns; the scale and the offset two length-n vectors laid out as [1, n] rows and repeated down the rows
    (`hostLayerNorm_apply`).
  Nothing depends on m: a block of rows and the whole array are read by the same lemmas.
-/
import Idealize.ShloMosaic.PureOps.Ideal.Laws
import Idealize.ShloMosaic.Lib.ValueIdx
import Idealize.ShloMosaic.Lib.ValueLayout
import Idealize.ShloMosaic.Lib.Pipeline.Value
import proofs.«160424_j11656541241918_2_alg».proof.Proof.LibRowWise
import proofs.«160424_j11656541241918_2_alg».proof.Proof.LibColumnCast
import proofs.«160424_j11656541241918_2_alg».proof.Proof.LibColumnBroadcast

noncomputable section

open scoped BigOperators

namespace Cert.LayerNorm

open Idealize.ShloMosaic Idealize.ShloMosaic.ValueIdx Cert.RowWise

/-- The normalised entry of one row at column q: (h q − μ) · (σ² + e)^(−1/2) · g + β, with μ = (Σ h) / c and
    σ² = (Σ (h − μ)²) / c. -/
def normEntry {n : ℕ} (c e : EReal) (h : Fin n → EReal) (q : Fin n) (g β : EReal) : EReal :=
  (h q - Ideal.div (∑ k : Fin n, h k) c)
    * Ideal.rsqrt (Ideal.div (∑ k : Fin n, (h k - Ideal.div (∑ j : Fin n, h j) c) * (h k - Ideal.div (∑ j : Fin n, h j) c)) c + e)
    * g + β

/-- Rows that agree entry by entry have the same normalised entries. -/
theorem normEntry_congr {n : ℕ} (c e : EReal) {h h' : Fin n → EReal} (hh : ∀ k, h k = h' k) (q : Fin n) {g g' β β' : EReal}
    (hg : g = g') (hβ : β = β') : normEntry c e h q g β = normEntry c e h' q g' β' := by
  rw [funext hh, hg, hβ]

/-! ## Pointwise operations at an index, on the extended reals -/

theorem addf_at {s : Shape} (x y : FVec Ideal s .f32) (i : s.Idx) : addf x y i = x i + y i := rfl
theorem subf_at {s : Shape} (x y : FVec Ideal s .f32) (i : s.Idx) : subf x y i = x i - y i := rfl
theorem mulf_at {s : Shape} (x y : FVec Ideal s .f32) (i : s.Idx) : mulf x y i = x i * y i := rfl
theorem divf_at {s : Shape} (x y : FVec Ideal s .f32) (i : s.Idx) : divf x y i = Ideal.div (x i) (y i) := rfl
theorem hostDivf_at {s : Shape} (x y : FVec Ideal s .f32) (i : s.Idx) : Host.divf x y i = Ideal.div (x i) (y i) := rfl
theorem hostRsqrt_at {s : Shape} (x : FVec Ideal s .f32) (i : s.Idx) : Host.rsqrt x i = Ideal.rsqrt (x i) := rfl

/-! ## The vector chain of a block -/

/-- The row mean as the vector chain spreads it: the row sum from zero, cast to a column, divided by the splat of c and
    broadcast across the columns, reads at (p, k) the mean of row p. -/
theorem vecMean_apply {m n : ℕ} (Z : FVec Ideal ⟨2, ![m, n]⟩ .f32) (c : Ideal .f32)
    (h : (⟨2, ![m, n]⟩ : Shape).Reduces [1] ⟨1, ![m]⟩) (hφ : FKind.Formats .f32)
    (hadd : (0x00000000#32 : BitVec 32) = FKind.add.neutral .f32 hφ)
    (hcol : (⟨1, ![m]⟩ : Shape).ShapeCasts ⟨2, ![m, 1]⟩) (hsp : (⟨2, ![m, 1]⟩ : Shape).Broadcasts ⟨2, ![m, n]⟩)
    (p : Fin m) (k : Fin n) :
    broadcastTo ⟨2, ![m, n]⟩ (divf (shapeCast ⟨2, ![m, 1]⟩ (multiReduction .add [1] ⟨1, ![m]⟩ Z 0x00000000#32 h hφ hadd) hcol)
        (broadcast ⟨2, ![m, 1]⟩ c)) hsp (ix2 p k)
      = Ideal.div (∑ j : Fin n, Z (ix2 p j)) c := by
  rw [Cert.LibColumnBroadcast.broadcastTo_a1_ab_apply, divf_at, Cert.LibColumnCast.shapeCast_a_a1_apply, vecRowSum_apply]
  rfl

/-- One entry of the vector chain: the entry less the row mean, times the inverse square root of the row variance plus
    the shift, times the scale, plus the offset. -/
theorem vecNorm_entry {m n : ℕ} (Z : FVec Ideal ⟨2, ![m, n]⟩ .f32) (c e g β : Ideal .f32)
    (h : (⟨2, ![m, n]⟩ : Shape).Reduces [1] ⟨1, ![m]⟩) (hφ : FKind.Formats .f32)
    (hadd : (0x00000000#32 : BitVec 32) = FKind.add.neutral .f32 hφ)
    (hcol : (⟨1, ![m]⟩ : Shape).ShapeCasts ⟨2, ![m, 1]⟩) (hsp : (⟨2, ![m, 1]⟩ : Shape).Broadcasts ⟨2, ![m, n]⟩)
    (p : Fin m) (q : Fin n) :
    FloatOps.addf (FloatOps.mulf (FloatOps.mulf
        (FloatOps.subf (Z (ix2 p q)) (FloatOps.divf (multiReduction .add [1] ⟨1, ![m]⟩ Z 0x00000000#32 h hφ hadd (ix1 p)) c))
        (FloatOps.rsqrt (FloatOps.addf (FloatOps.divf
          (multiReduction .add [1] ⟨1, ![m]⟩
            (mulf
              (subf Z (broadcastTo ⟨2, ![m, n]⟩ (divf (shapeCast ⟨2, ![m, 1]⟩ (multiReduction .add [1] ⟨1, ![m]⟩ Z 0x00000000#32 h hφ hadd) hcol) (broadcast ⟨2, ![m, 1]⟩ c)) hsp))
              (subf Z (broadcastTo ⟨2, ![m, n]⟩ (divf (shapeCast ⟨2, ![m, 1]⟩ (multiReduction .add [1] ⟨1, ![m]⟩ Z 0x00000000#32 h hφ hadd) hcol) (broadcast ⟨2, ![m, 1]⟩ c)) hsp)))
            0x00000000#32 h hφ hadd (ix1 p)) c) e))) g) β
      = normEntry c e (fun k => Z (ix2 p k)) q g β := by
  unfold normEntry
  rw [vecRowSum_apply, vecRowSum_apply]
  simp only [Ideal.addf_def, Ideal.mulf_def, Ideal.subf_def, Ideal.divf_def, Ideal.rsqrt_def]
  refine congrArg (fun s => (Z (ix2 p q) - Ideal.div (∑ k : Fin n, Z (ix2 p k)) c) * Ideal.rsqrt (Ideal.div s c + e) * g + β) ?_
  refine Finset.sum_congr rfl fun k _ => ?_
  rw [mulf_at, subf_at, vecMean_apply]

/-! ## The host's chain -/

/-- A scalar constant spread over an array by the host reads its value at every index. -/
theorem scalarSpread_apply {s : Shape} (w : BitVec 32) (g0 : (⟨0, ![]⟩ : Shape).BroadcastsInDim s ![]) (i : s.Idx) :
    broadcastInDim s ![] g0 (constant (F := Ideal) ⟨0, ![]⟩ .f32 w) i = Ideal.ofBits .f32 w :=
  broadcastInDim_apply _ g0 _ i ix0 (fun a => a.elim0)

/-- The host's layer normalisation of the rows of Z with divisor word cw and shift word ew, scale g and offset β. -/
def hostLayerNorm {m n : ℕ} (cw ew : BitVec 32)
    (gC : (⟨0, ![]⟩ : Shape).BroadcastsInDim ⟨2, ![m, 1]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (r1 : (⟨1, ![n]⟩ : Shape).BroadcastsInDim ⟨2, ![1, n]⟩ ![1])
    (r2 : (⟨2, ![1, n]⟩ : Shape).BroadcastsInDim ⟨2, ![m, n]⟩ ![0, 1])
    (h' : (⟨2, ![m, n]⟩ : Shape).ReducesTo [1] ⟨1, ![m]⟩) (hu : 0 < (⟨0, ![]⟩ : Shape).numel)
    (Z : FVec Ideal ⟨2, ![m, n]⟩ .f32) (g β : FVec Ideal ⟨1, ![n]⟩ .f32) : FVec Ideal ⟨2, ![m, n]⟩ .f32 :=
  addf (mulf (mulf
      (subf Z (broadcastInDim ⟨2, ![m, n]⟩ ![0, 1] g2 (Host.divf
        (broadcastInDim ⟨2, ![m, 1]⟩ ![0] g1 (Host.reduceAdd Z (constant (F := Ideal) ⟨0, ![]⟩ .f32 0x00000000#32) h' hu))
        (broadcastInDim ⟨2, ![m, 1]⟩ ![] gC (constant (F := Ideal) ⟨0, ![]⟩ .f32 cw)))))
      (broadcastInDim ⟨2, ![m, n]⟩ ![0, 1] g2 (Host.rsqrt (addf (Host.divf
        (broadcastInDim ⟨2, ![m, 1]⟩ ![0] g1 (Host.reduceAdd
          (mulf
            (subf Z (broadcastInDim ⟨2, ![m, n]⟩ ![0, 1] g2 (Host.divf
              (broadcastInDim ⟨2, ![m, 1]⟩ ![0] g1 (Host.reduceAdd Z (constant (F := Ideal) ⟨0, ![]⟩ .f32 0x00000000#32) h' hu))
              (broadcastInDim ⟨2, ![m, 1]⟩ ![] gC (constant (F := Ideal) ⟨0, ![]⟩ .f32 cw)))))
            (subf Z (broadcastInDim ⟨2, ![m, n]⟩ ![0, 1] g2 (Host.divf
              (broadcastInDim ⟨2, ![m, 1]⟩ ![0] g1 (Host.reduceAdd Z (constant (F := Ideal) ⟨0, ![]⟩ .f32 0x00000000#32) h' hu))
              (broadcastInDim ⟨2, ![m, 1]⟩ ![] gC (constant (F := Ideal) ⟨0, ![]⟩ .f32 cw))))))
          (constant (F := Ideal) ⟨0, ![]⟩ .f32 0x00000000#32) h' hu))
        (broadcastInDim ⟨2, ![m, 1]⟩ ![] gC (constant (F := Ideal) ⟨0, ![]⟩ .f32 cw)))
        (broadcastInDim ⟨2, ![m, 1]⟩ ![] gC (constant (F := Ideal) ⟨0, ![]⟩ .f32 ew))))))
      (broadcastInDim ⟨2, ![m, n]⟩ ![0, 1] r2 (broadcastInDim ⟨2, ![1, n]⟩ ![1] r1 g)))
    (broadcastInDim ⟨2, ![m, n]⟩ ![0, 1] r2 (broadcastInDim ⟨2, ![1, n]⟩ ![1] r1 β))

/-- The row mean as the host spreads it reads, at (a, b), the mean of row a. -/
theorem hostMean_apply {m n : ℕ} (cw : BitVec 32)
    (gC : (⟨0, ![]⟩ : Shape).BroadcastsInDim ⟨2, ![m, 1]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    broadcastInDim ⟨2, ![m, n]⟩ ![0, 1] g2 (Host.divf
        (broadcastInDim ⟨2, ![m, 1]⟩ ![0] g1 (Host.reduceAdd Z (constant (F := Ideal) ⟨0, ![]⟩ .f32 0x00000000#32) h' hu))
        (broadcastInDim ⟨2, ![m, 1]⟩ ![] gC (constant (F := Ideal) ⟨0, ![]⟩ .f32 cw))) (ix2 a b)
      = Ideal.div (∑ k : Fin n, Z (ix2 a k)) (Ideal.ofBits .f32 cw) := by
  rw [colSpread_apply, hostDivf_at, colLift_apply, hostRowSum_apply Z h' h hu a, scalarSpread_apply]

/-- The host's layer normalisation reads, at (a, b), the normalised entry of row a at column b. -/
theorem hostLayerNorm_apply {m n : ℕ} (cw ew : BitVec 32)
    (gC : (⟨0, ![]⟩ : Shape).BroadcastsInDim ⟨2, ![m, 1]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (r1 : (⟨1, ![n]⟩ : Shape).BroadcastsInDim ⟨2, ![1, n]⟩ ![1])
    (r2 : (⟨2, ![1, n]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel)
    (Z : FVec Ideal ⟨2, ![m, n]⟩ .f32) (g β : FVec Ideal ⟨1, ![n]⟩ .f32) (a : Fin m) (b : Fin n) :
    hostLayerNorm cw ew gC g1 g2 r1 r2 h' hu Z g β (ix2 a b)
      = normEntry (Ideal.ofBits .f32 cw) (Ideal.ofBits .f32 ew) (fun k => Z (ix2 a k)) b (g (ix1 b)) (β (ix1 b)) := by
  unfold hostLayerNorm normEntry
  rw [addf_at, mulf_at, mulf_at, subf_at, hostMean_apply cw gC g1 g2 h' h hu Z a b, biasRow_apply, biasRow_apply, colSpread_apply,
    hostRsqrt_at, addf_at, hostDivf_at, colLift_apply, hostRowSum_apply _ h' h hu a, scalarSpread_apply, scalarSpread_apply]
  refine congrArg (fun s => (Z (ix2 a b) - Ideal.div (∑ k : Fin n, Z (ix2 a k)) (Ideal.ofBits .f32 cw))
      * Ideal.rsqrt (Ideal.div s (Ideal.ofBits .f32 cw) + Ideal.ofBits .f32 ew) * g (ix1 b) + β (ix1 b)) ?_
  refine Finset.sum_congr rfl fun k _ => ?_
  rw [mulf_at, subf_at, hostMean_apply cw gC g1 g2 h' h hu Z a k]

end Cert.LayerNorm

end
-- ==== Proof.Hidden.lean ====
/-
  The hidden rows: what both programs hold, entry by entry, before the normalisation.

  For node r write x = feat(r, ·) for its own features, s = S(r, ·) for the sum of its in-neighbours' features and d for its
  in-degree (both as the shared gather and scatter-add stage leaves them: that stage is the same text in the two programs and is
  never opened here). The hidden entry at output column k is

      max( Σ_c x(c) · W(c, k)  +  Σ_c (s(c) / max(d, 1)) · W(128 + c, k)  +  b(k),  0 )        (`hiddenEntry`).

  The kernel computes it block by block as two products into zero — the block of feat with the upper half of W, the block of
  S divided by its clamped degree column with the lower half — added, plus the bias row, clamped at zero (`block_hidden`).
  The reference lays feat and S / max(d, 1) side by side and takes ONE product with the whole of W over the 256 joined
  columns; a sum over 256 columns is the sum over the first 128 plus the sum over the last 128 (`sum_halves`), which on the
  extended reals needs only that addition is associative and commutative: no finiteness (`ref_hidden`).
-/
import proofs.«160424_j11656541241918_2_alg».proof.Proof.Gen.KernelIdeal.Skeleton
import proofs.«160424_j11656541241918_2_alg».proof.Proof.Gen.ReferenceIdeal.Read
import proofs.«160424_j11656541241918_2_alg».proof.Proof.LibPlainMatmul
import proofs.«160424_j11656541241918_2_alg».proof.Proof.LibPlainDot
import proofs.«160424_j11656541241918_2_alg».proof.Proof.LibConcatColumns
import proofs.«160424_j11656541241918_2_alg».proof.Proof.LibColumnBroadcast
import proofs.«160424_j11656541241918_2_alg».proof.Proof.LibRowWise
import proofs.«160424_j11656541241918_2_alg».proof.Proof.LibLayerNorm
import Idealize.ShloMosaic.Lib.ValueLayout

noncomputable section

open scoped BigOperators

namespace Cert.SageRows

open Idealize.ShloMosaic Idealize.ShloMosaic.ValueIdx

/-- Column c of the first half of 256 joined columns. -/
abbrev lo (c : Fin 128) : Fin 256 := ⟨c.val, by have := c.isLt; omega⟩
/-- Column c of the second half. -/
abbrev hi (c : Fin 128) : Fin 256 := ⟨128 + c.val, by have := c.isLt; omega⟩

/-- A sum over 256 columns is the sum over the first 128 plus the sum over the last 128. -/
theorem sum_halves (f : Fin 256 → EReal) : ∑ j : Fin 256, f j = (∑ c : Fin 128, f (lo c)) + ∑ c : Fin 128, f (hi c) :=
  Fin.sum_univ_add (a := 128) (b := 128) f

/-- The hidden entry of a node from its own row x, its neighbours' summed row s, its degree d, the two halves' columns
    w1, w2 of the weight and the bias b. -/
def hiddenEntry (x s : Fin 128 → EReal) (d : EReal) (w1 w2 : Fin 128 → EReal) (b : EReal) : EReal :=
  max ((∑ c : Fin 128, x c * w1 c)
      + (∑ c : Fin 128, Ideal.div (s c) (max d (Ideal.ofBits .f32 0x3F800000#32)) * w2 c) + b)
    (Ideal.ofBits .f32 0x00000000#32)

/-! Pointwise operations at an index, on the extended reals (each by unfolding). -/

theorem maximumf_at {s : Shape} (x y : FVec Ideal s .f32) (i : s.Idx) : maximumf x y i = max (x i) (y i) := rfl
theorem truncf_at {s : Shape} {φ ψ : FTy} (x : FVec Ideal s φ) (h : ψ.bits < φ.bits) (i : s.Idx) : truncf ψ x h i = x i := rfl

section Kernel
open Cert.KernelIdeal Cert.KernelIdeal.Gen Cert.KernelIdeal.Facts₀

/-- The kernel's clamped pre-activation of a block, at row p and column k. -/
theorem block_hidden (P0 P1 : Vec Ideal S2000x128 .f32) (P2 : Vec Ideal S2000x1 .f32) (P3 P4 : Vec Ideal S128x256 .bf16)
    (P5 : Vec Ideal S1x256 .f32) (p : Fin 2000) (k : Fin 256) :
    k0_pay2 P0 P1 P2 P3 P4 P5 (ix2 p k)
      = hiddenEntry (fun c => P0 (ix2 p c)) (fun c => P1 (ix2 p c)) (P2 (ix2 p (0 : Fin 1)))
          (fun c => P3 (ix2 c k)) (fun c => P4 (ix2 c k)) (P5 (ix2 (0 : Fin 1) k)) := by
  have hd : dot_S2000x128_S128x256_S2000x256_1_0_0_1_n_n = DotDims.plain 2000 128 256 := rfl
  unfold k0_pay2 hiddenEntry
  simp only [shapeCast_self]
  rw [maximumf_at, Cert.LayerNorm.addf_at, Cert.LayerNorm.addf_at, hd, matmul_plain_zero_apply, matmul_plain_zero_apply, broadcastTo_1b_ab_apply]
  refine congrArg₂ max (congrArg₂ (· + ·) (congrArg₂ (· + ·) rfl ?_) rfl) rfl
  refine Finset.sum_congr rfl fun c _ => congrArg (· * P4 (ix2 c k)) ?_
  rw [truncf_at, Cert.LayerNorm.divf_at, Cert.LibColumnBroadcast.broadcastTo_a1_ab_apply, maximumf_at]
  rfl

end Kernel

section Reference
open Cert.ReferenceIdeal Cert.ReferenceIdeal.Read Cert.ReferenceIdeal.Facts₀

/-- The reference's clamped pre-activation at node r and column k, over the joined 256 columns, is the same hidden entry. -/
theorem ref_hidden (a0 : (⟨S100000x128, .f32⟩ : BufTy).Contents (Elt Ideal)) (a1 : (⟨S256x256, .f32⟩ : BufTy).Contents (Elt Ideal))
    (a2 : (⟨S256, .f32⟩ : BufTy).Contents (Elt Ideal)) (a5 a6 : (⟨S600000, .i32⟩ : BufTy).Contents (Elt Ideal))
    (r : Fin 100000) (k : Fin 256) :
    val_main_v24 (F := Ideal) a0 a1 a2 a5 a6 (ix2 r k)
      = hiddenEntry (fun c => a0 (ix2 r c)) (fun c => val_main_v9 (F := Ideal) a0 a5 a6 (ix2 r c))
          (val_main_v13 (F := Ideal) a6 (ix1 r)) (fun c => a1 (ix2 (lo c) k)) (fun c => a1 (ix2 (hi c) k)) (a2 (ix1 k)) := by
  have hd : dot_S100000x256_S256x256_S100000x256_1_0_0_1_n_n = DotDims.plain 100000 256 256 := rfl
  unfold val_main_v24 val_main_v23 val_main_v22 val_main_v21 val_main_call0_v0 val_main_call0_cst val_main_v20
  rw [Cert.RowWise.hostBiasRelu_apply, hd, hostDotGeneral_plain_apply, sum_halves]
  unfold hiddenEntry
  refine congrArg₂ (fun s s' => max (s + s' + a2 (ix1 k)) (Ideal.ofBits .f32 0x00000000#32)) ?_ ?_
  · refine Finset.sum_congr rfl fun c _ => ?_
    unfold val_main_v19
    rw [Cert.LibConcatColumns.concat_cols_left _ _ _ r (lo c) c rfl]
  · refine Finset.sum_congr rfl fun c _ => ?_
    unfold val_main_v19
    rw [Cert.LibConcatColumns.concat_cols_right _ _ _ r (hi c) c (by show c.val + 128 = 128 + c.val; omega)]
    refine congrArg (· * a1 (ix2 (hi c) k)) ?_
    rw [val_main_v18_apply]
    unfold val_main_v17 val_main_v16
    rw [Cert.RowWise.column_apply, val_main_v15_apply]
    unfold val_main_v14 val_main_cst_3
    rw [Cert.LayerNorm.scalarSpread_apply]
    rfl

end Reference

end Cert.SageRows

end
-- ==== Proof.Norm.lean ====
/-
  Both programs' results, entry by entry: the normalised hidden row.

  With h(r, ·) the hidden row of node r (`Cert.SageRows.hiddenEntry`), both programs end holding, at (r, q),

      (h(r, q) − μ_r) · (σ²_r + ε)^(−1/2) · γ(q) + β(q),      μ_r = (Σ_k h(r, k)) / 256,  σ²_r = (Σ_k (h(r, k) − μ_r)²) / 256

  (`Cert.LayerNorm.normEntry` at the divisor 256 and the shift ε, both kept as the f32 words the programs spell).
  * The kernel's block (`block_entry`): what a grid point stores at (p, q) of its block is that expression of the block's own
    row p — the generated index-by-index form of the block read at (p, q), its two row sums read as sums, its hidden values
    by `block_hidden`.
  * The reference (`ref_entry`): its last twenty-four operations ARE the host's layer normalisation of its hidden array
    (by unfolding), whose entries are `ref_hidden`'s.
-/
import proofs.«160424_j11656541241918_2_alg».proof.Proof.Gen.KernelIdeal.Value
import proofs.«160424_j11656541241918_2_alg».proof.Proof.Gen.ReferenceIdeal.Read
import proofs.«160424_j11656541241918_2_alg».proof.Proof.Hidden
import proofs.«160424_j11656541241918_2_alg».proof.Proof.LibLayerNorm

noncomputable section

open scoped BigOperators

namespace Cert.SageRows

open Idealize.ShloMosaic Idealize.ShloMosaic.ValueIdx Cert.LayerNorm

/-- The row length 256 as both programs spell it. -/
abbrev rowLen : EReal := Ideal.ofBits .f32 0x43800000#32
/-- The shift ε (the f32 nearest 1e-5) as both programs spell it. -/
abbrev shift : EReal := Ideal.ofBits .f32 0x3727C5AC#32

section Kernel
open Cert.KernelIdeal Cert.KernelIdeal.Gen Cert.KernelIdeal.Value

theorem hz : (![0, 0] : Fin 2 → Nat) = fun _ => 0 := funext fun a => by fin_cases a <;> rfl

/-- What the body leaves in the output block is the generated index-by-index function of its loaded blocks. -/
theorem out_apply (x0 x1 : Vec Ideal S2000x128 .f32) (x2 : Vec Ideal S2000x1 .f32) (x3 x4 : Vec Ideal S128x256 .bf16)
    (x5 x6 x7 : Vec Ideal S1x256 .f32) (j : S2000x256.Idx) :
    out0_8 x0 x1 x2 x3 x4 x5 x6 x7 j = E8 x0 x1 x2 x3 x4 x5 x6 x7 j := by
  unfold out0_8
  simp only [View.ld_unit_zero (S := S2000x128) hz, View.ld_unit_zero (S := S2000x1) hz, View.ld_unit_zero (S := S128x256) hz,
    View.ld_unit_zero (S := S1x256) hz]
  exact canon8_eq x0 x1 x2 x3 x4 x5 x6 x7 j

/-- The block's entry at row p and column q: the normalised entry of the block's hidden row p. -/
theorem block_entry (x0 x1 : Vec Ideal S2000x128 .f32) (x2 : Vec Ideal S2000x1 .f32) (x3 x4 : Vec Ideal S128x256 .bf16)
    (x5 x6 x7 : Vec Ideal S1x256 .f32) (p : Fin 2000) (q : Fin 256) :
    out0_8 x0 x1 x2 x3 x4 x5 x6 x7 (ix2 p q)
      = normEntry rowLen shift
          (fun k => hiddenEntry (fun c => x0 (ix2 p c)) (fun c => x1 (ix2 p c)) (x2 (ix2 p (0 : Fin 1)))
            (fun c => x3 (ix2 c k)) (fun c => x4 (ix2 c k)) (x5 (ix2 (0 : Fin 1) k)))
          q (x6 (ix2 (0 : Fin 1) q)) (x7 (ix2 (0 : Fin 1) q)) := by
  have e0 : ix8_0 (ix2 p q) = ix2 p q := funext fun a => match a with | ⟨0, _⟩ => rfl | ⟨1, _⟩ => rfl
  have e1 : ix8_1 (ix2 p q) = ix1 p := funext fun a => match a with | ⟨0, _⟩ => rfl
  have e2 : ix8_2 (ix2 p q) = ix1 p := funext fun a => match a with | ⟨0, _⟩ => rfl
  have e3 : ix8_3 (ix2 p q) = ix2 p (0 : Fin 1) := funext fun a => match a with | ⟨0, _⟩ => rfl | ⟨1, _⟩ => rfl
  have e4 : ix8_4 (ix2 p q) = ix2 (0 : Fin 1) q := funext fun a => match a with | ⟨0, _⟩ => rfl | ⟨1, _⟩ => rfl
  have e5 : ix8_5 (ix2 p q) = ix2 (0 : Fin 1) q := funext fun a => match a with | ⟨0, _⟩ => rfl | ⟨1, _⟩ => rfl
  rw [out_apply]
  unfold E8
  rw [e0, e1, e2, e3, e4, e5]
  refine (vecNorm_entry (k0_pay2 x0 x1 x2 x3 x4 x5) (Scalar.ofBits .f32 0x43800000#32) (k0_pay6 (F := Ideal) (ix2 p (0 : Fin 1)))
    (x6 (ix2 (0 : Fin 1) q)) (x7 (ix2 (0 : Fin 1) q)) reduces_S2000x256_S2000 (.inl rfl) rfl shapeCasts_S2000_S2000x1
    broadcasts_S2000x1_S2000x256 p q).trans ?_
  exact normEntry_congr _ _ (fun k => block_hidden x0 x1 x2 x3 x4 x5 p k) q rfl rfl

end Kernel

section Reference
open Cert.ReferenceIdeal Cert.ReferenceIdeal.Read Cert.ReferenceIdeal.Facts₀

/-- The reference's result at node r and column q: the normalised entry of node r's hidden row. -/
theorem ref_entry (a0 : (⟨S100000x128, .f32⟩ : BufTy).Contents (Elt Ideal)) (a1 : (⟨S256x256, .f32⟩ : BufTy).Contents (Elt Ideal))
    (a2 a3 a4 : (⟨S256, .f32⟩ : BufTy).Contents (Elt Ideal)) (a5 a6 : (⟨S600000, .i32⟩ : BufTy).Contents (Elt Ideal))
    (r : Fin 100000) (q : Fin 256) :
    val_main_v48 (F := Ideal) a0 a1 a2 a3 a4 a5 a6 (ix2 r q)
      = normEntry rowLen shift
          (fun k => hiddenEntry (fun c => a0 (ix2 r c)) (fun c => val_main_v9 (F := Ideal) a0 a5 a6 (ix2 r c))
            (val_main_v13 (F := Ideal) a6 (ix1 r)) (fun c => a1 (ix2 (lo c) k)) (fun c => a1 (ix2 (hi c) k)) (a2 (ix1 k)))
          q (a3 (ix1 q)) (a4 (ix1 q)) := by
  have e : val_main_v48 (F := Ideal) a0 a1 a2 a3 a4 a5 a6
      = hostLayerNorm 0x43800000#32 0x3727C5AC#32 bcast_S_S100000x1 bcast_S100000_S100000x1_0 bcast_S100000x1_S100000x256_0_1
          bcast_S256_S1x256_1 bcast_S1x256_S100000x256_0_1 reducesTo_S100000x256_S100000_d1 h_S_
          (val_main_v24 (F := Ideal) a0 a1 a2 a5 a6) a3 a4 := rfl
  rw [e, hostLayerNorm_apply _ _ _ _ _ _ _ _ (by decide) _ _ _ _ r q]
  exact normEntry_congr _ _ (fun k => ref_hidden a0 a1 a2 a5 a6 r k) q rfl rfl

end Reference

section Both
open Cert.KernelIdeal Cert.KernelIdeal.Gen

/-- A block whose loaded blocks hold node r's data at row p — its own features, its neighbours' summed features and its degree as the
    shared stage leaves them, the two halves of the weight, the bias, the scale and the offset — stores at (p, q) what the reference
    holds at (r, q). -/
theorem entry_eq (a0 : (⟨Cert.ReferenceIdeal.S100000x128, .f32⟩ : BufTy).Contents (Elt Ideal))
    (a1 : (⟨Cert.ReferenceIdeal.S256x256, .f32⟩ : BufTy).Contents (Elt Ideal))
    (a2 a3 a4 : (⟨Cert.ReferenceIdeal.S256, .f32⟩ : BufTy).Contents (Elt Ideal))
    (a5 a6 : (⟨Cert.ReferenceIdeal.S600000, .i32⟩ : BufTy).Contents (Elt Ideal))
    (x0 x1 : Vec Ideal S2000x128 .f32) (x2 : Vec Ideal S2000x1 .f32) (x3 x4 : Vec Ideal S128x256 .bf16)
    (x5 x6 x7 : Vec Ideal S1x256 .f32) (r : Fin 100000) (p : Fin 2000) (q : Fin 256)
    (h0 : ∀ c : Fin 128, x0 (ix2 p c) = a0 (ix2 r c))
    (h1 : ∀ c : Fin 128, x1 (ix2 p c) = Cert.ReferenceIdeal.Read.val_main_v9 (F := Ideal) a0 a5 a6 (ix2 r c))
    (h2 : x2 (ix2 p (0 : Fin 1)) = Cert.ReferenceIdeal.Read.val_main_v13 (F := Ideal) a6 (ix1 r))
    (h3 : ∀ (c : Fin 128) (k : Fin 256), x3 (ix2 c k) = a1 (ix2 (lo c) k))
    (h4 : ∀ (c : Fin 128) (k : Fin 256), x4 (ix2 c k) = a1 (ix2 (hi c) k))
    (h5 : ∀ k : Fin 256, x5 (ix2 (0 : Fin 1) k) = a2 (ix1 k))
    (h6 : ∀ k : Fin 256, x6 (ix2 (0 : Fin 1) k) = a3 (ix1 k))
    (h7 : ∀ k : Fin 256, x7 (ix2 (0 : Fin 1) k) = a4 (ix1 k)) :
    out0_8 x0 x1 x2 x3 x4 x5 x6 x7 (ix2 p q)
      = Cert.ReferenceIdeal.Read.val_main_v48 (F := Ideal) a0 a1 a2 a3 a4 a5 a6 (ix2 r q) := by
  rw [block_entry, ref_entry]
  refine normEntry_congr _ _ (fun k => ?_) q (h6 q) (h7 q)
  rw [funext h0, funext h1, h2, funext (fun c => h3 c k), funext (fun c => h4 c k), h5 k]

end Both

end Cert.SageRows

end
-- ==== Proof.Blocks.lean ====
/-
  From blocks to the array: the kernel's result array is the reference's.

  The grid has 50 points; point t stages rows 2000·t … 2000·t + 1999 of the three row-blocked operands — the features, the
  neighbours' summed features S and the degree column D, the last two written by the host stage that runs before the launch —
  together with the whole of the two halves of the weight, the bias, the scale and the offset, and writes back rows
  2000·t … 2000·t + 1999 of the result. So row p of point t's block is node r = 2000·t + p of every array
  (`emb_out`, `blk_feat`, `blk_sum`, `blk_deg`, `blk_w1`, `blk_w2`, `blk_bias`, `blk_scale`, `blk_offset`: the index maps decided over
  the grid, the host stage's arrays read off the operations that wrote them), what the point writes back is that block of the
  reference's result read as a function of the argument arrays (`flushed_eq`, by `Cert.SageRows.entry_eq`), the 50 blocks cover
  the 100000 rows (`cover`: row i lies in block i / 2000), and the array after the run is that function (`final`, `run`).
-/
import proofs.«160424_j11656541241918_2_alg».proof.Proof.Gen.KernelIdeal.Value
import proofs.«160424_j11656541241918_2_alg».proof.Proof.Gen.ReferenceIdeal.Read
import proofs.«160424_j11656541241918_2_alg».proof.Proof.Norm
import proofs.«160424_j11656541241918_2_alg».proof.Proof.LibColumnCast
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.Hand

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.SageRows (lo hi)

variable (m : (ℓ : Loc nD τ sig) → Buf (Elt Ideal) ℓ) (ρ : Dev nD → PrngReg)

/-- The reference's result as a function of the kernel's argument arrays: what the kernel's result array ends holding. -/
abbrev result (c : Dev nD) : Buf (Elt Ideal) ((c : Thread nD τ).loc main_v22) :=
  Cert.ReferenceIdeal.Read.val_main_v48 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-! ## The index maps, decided over the grid -/

/-- The row-blocked windows (features, summed features, degree column, result) are at block (t, 0) at point t. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_8.index t (0 : Fin 2) = t.val ∧ win0_8.index t (1 : Fin 2) = 0 :=
  (by decide +kernel : ∀ t : Fin grid0.N, _)

/-- The resident windows (the two halves of the weight, the bias, the scale, the offset) stay at block (0, 0). -/
theorem idx_resident : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The arrays the host stage wrote before the launch -/

/-- The neighbours' summed features are the reference's. -/
theorem V_sum (c : Dev nD) : (V m c main_v9 : S100000x128.Idx → EReal)
    = Cert.ReferenceIdeal.Read.val_main_v9 (F := Ideal) (m ((c : Thread nD τ).loc main_arg0)) (m ((c : Thread nD τ).loc main_arg5)) (m ((c : Thread nD τ).loc main_arg6)) := by
  dsimp only [Gen.V, Gen.hostOps0]; after_results; rfl

/-- The degree column is the reference's degree vector cast to a column. -/
theorem V_deg (c : Dev nD) : (V m c main_v14 : S100000x1.Idx → EReal)
    = shapeCast S100000x1 (Cert.ReferenceIdeal.Read.val_main_v13 (F := Ideal) (m ((c : Thread nD τ).loc main_arg6))) shapeCasts_S100000_S100000x1 := by
  dsimp only [Gen.V, Gen.hostOps0]; after_results; rfl

/-- The upper half of the weight (narrowed: the identity on exact values). -/
theorem V_w1 (c : Dev nD) : (V m c main_v16 : S128x256.Idx → EReal)
    = extractStridedSlice S128x256 ![0, 0] (m ((c : Thread nD τ).loc main_arg1) : S256x256.Idx → EReal) slices_S256x256_S128x256_0_0 := by
  dsimp only [Gen.V, Gen.hostOps0]; after_results; rfl

/-- The lower half of the weight. -/
theorem V_w2 (c : Dev nD) : (V m c main_v18 : S128x256.Idx → EReal)
    = extractStridedSlice S128x256 ![128, 0] (m ((c : Thread nD τ).loc main_arg1) : S256x256.Idx → EReal) slices_S256x256_S128x256_128_0 := by
  dsimp only [Gen.V, Gen.hostOps0]; after_results; rfl

/-- The bias as a one-row matrix. -/
theorem V_bias (c : Dev nD) : (V m c main_v19 : S1x256.Idx → EReal)
    = shapeCast S1x256 (m ((c : Thread nD τ).loc main_arg2) : S256.Idx → EReal) shapeCasts_S256_S1x256 := by
  dsimp only [Gen.V, Gen.hostOps0]; after_results; rfl

/-- The scale as a one-row matrix. -/
theorem V_scale (c : Dev nD) : (V m c main_v20 : S1x256.Idx → EReal)
    = shapeCast S1x256 (m ((c : Thread nD τ).loc main_arg3) : S256.Idx → EReal) shapeCasts_S256_S1x256 := by
  dsimp only [Gen.V, Gen.hostOps0]; after_results; rfl

/-- The offset as a one-row matrix. -/
theorem V_offset (c : Dev nD) : (V m c main_v21 : S1x256.Idx → EReal)
    = shapeCast S1x256 (m ((c : Thread nD τ).loc main_arg4) : S256.Idx → EReal) shapeCasts_S256_S1x256 := by
  dsimp only [Gen.V, Gen.hostOps0]; after_results; rfl

/-! ## Row p of point t's blocks is node 2000·t + p -/

/-- The result window's block at point t sits at rows 2000·t …. -/
theorem emb_out (t : Fin cfg0.N) (p : Fin 2000) (q : Fin 256) (r : Fin 100000) (hr : r.val = 2000 * t.val + p.val) :
    ((cfg0.win 8).blk t).view.emb (ix2 p q) = (ix2 r q : S100000x256.Idx) := by
  obtain ⟨-, -, -, -, -, -, e0, e1⟩ := idx_rows t
  funext a; apply Fin.ext
  match a with
  | ⟨0, _⟩ => show win0_8.index t (0 : Fin 2) * 2000 + 1 * p.val = r.val; rw [e0, hr]; omega
  | ⟨1, _⟩ => show win0_8.index t (1 : Fin 2) * 256 + 1 * q.val = q.val; rw [e1]; omega

/-- The features' block. -/
theorem blk_feat (c : Dev nD) (t : Fin cfg0.N) (p : Fin 2000) (k : Fin 128) (r : Fin 100000) (hr : r.val = 2000 * t.val + p.val) :
    (iblk m c 0 t : Vec Ideal S2000x128 .f32) (ix2 p k) = (m ((c : Thread nD τ).loc main_arg0) : S100000x128.Idx → EReal) (ix2 r k) := by
  obtain ⟨e0, e1, -⟩ := idx_rows t
  show V m c main_arg0 (((cfg0.win 0).blk t).view.emb (ix2 p k)) = _
  rw [V_main_arg0]
  refine congrArg _ (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The summed features' block. -/
theorem blk_sum (c : Dev nD) (t : Fin cfg0.N) (p : Fin 2000) (k : Fin 128) (r : Fin 100000) (hr : r.val = 2000 * t.val + p.val) :
    (iblk m c 1 t : Vec Ideal S2000x128 .f32) (ix2 p k)
      = Cert.ReferenceIdeal.Read.val_main_v9 (F := Ideal) (m ((c : Thread nD τ).loc main_arg0)) (m ((c : Thread nD τ).loc main_arg5)) (m ((c : Thread nD τ).loc main_arg6)) (ix2 r k) := by
  obtain ⟨-, -, e0, e1, -⟩ := idx_rows t
  show (V m c main_v9 : S100000x128.Idx → EReal) (((cfg0.win 1).blk t).view.emb (ix2 p k)) = _
  rw [V_sum]
  refine congrArg _ (funext fun a => Fin.ext ?_)
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

/-- The degree column's block. -/
theorem blk_deg (c : Dev nD) (t : Fin cfg0.N) (p : Fin 2000) (r : Fin 100000) (hr : r.val = 2000 * t.val + p.val) :
    (iblk m c 2 t : Vec Ideal S2000x1 .f32) (ix2 p (0 : Fin 1))
      = Cert.ReferenceIdeal.Read.val_main_v13 (F := Ideal) (m ((c : Thread nD τ).loc main_arg6)) (ix1 r) := by
  obtain ⟨-, -, -, -, e0, e1, -⟩ := idx_rows t
  show (V m c main_v14 : S100000x1.Idx → EReal) (((cfg0.win 2).blk t).view.emb (ix2 p (0 : Fin 1))) = _
  rw [V_deg]
  have e : ((cfg0.win 2).blk t).view.emb (ix2 p (0 : Fin 1)) = (ix2 r (0 : Fin 1) : S100000x1.Idx) := by
    funext a; apply Fin.ext
    match a with
    | ⟨0, _⟩ => show win0_2.index t (0 : Fin 2) * 2000 + 1 * p.val = r.val; rw [e0, hr]; omega
    | ⟨1, _⟩ => show win0_2.index t (1 : Fin 2) * 1 + 1 * 0 = 0; rw [e1]
  rw [e]
  exact Cert.LibColumnCast.shapeCast_a_a1_apply _ _ r 0

/-- The upper half of the weight, resident: its one block is the whole half. -/
theorem blk_w1 (c : Dev nD) (t : Fin cfg0.N) (k : Fin 128) (q : Fin 256) :
    (iblk m c 3 t : Vec Ideal S128x256 .bf16) (ix2 k q) = (m ((c : Thread nD τ).loc main_arg1) : S256x256.Idx → EReal) (ix2 (lo k) q) := by
  obtain ⟨e0, e1, -⟩ := idx_resident t
  show (V m c main_v16 : S128x256.Idx → EReal) (((cfg0.win 3).blk t).view.emb (ix2 k q)) = _
  rw [V_w1]
  have e : ((cfg0.win 3).blk t).view.emb (ix2 k q) = (ix2 k q : S128x256.Idx) := by
    funext a; apply Fin.ext
    match a with
    | ⟨0, _⟩ => show win0_3.index t (0 : Fin 2) * 128 + 1 * k.val = k.val; rw [e0]; omega
    | ⟨1, _⟩ => show win0_3.index t (1 : Fin 2) * 256 + 1 * q.val = q.val; rw [e1]; omega
  rw [e]
  refine extractStridedSlice_apply _ _ _ _ _ fun a => ?_
  match a with
  | ⟨0, _⟩ => show k.val = 0 + k.val; omega
  | ⟨1, _⟩ => show q.val = 0 + q.val; omega

/-- The lower half of the weight, resident. -/
theorem blk_w2 (c : Dev nD) (t : Fin cfg0.N) (k : Fin 128) (q : Fin 256) :
    (iblk m c 4 t : Vec Ideal S128x256 .bf16) (ix2 k q) = (m ((c : Thread nD τ).loc main_arg1) : S256x256.Idx → EReal) (ix2 (hi k) q) := by
  obtain ⟨-, -, e0, e1, -⟩ := idx_resident t
  show (V m c main_v18 : S128x256.Idx → EReal) (((cfg0.win 4).blk t).view.emb (ix2 k q)) = _
  rw [V_w2]
  have e : ((cfg0.win 4).blk t).view.emb (ix2 k q) = (ix2 k q : S128x256.Idx) := by
    funext a; apply Fin.ext
    match a with
    | ⟨0, _⟩ => show win0_4.index t (0 : Fin 2) * 128 + 1 * k.val = k.val; rw [e0]; omega
    | ⟨1, _⟩ => show win0_4.index t (1 : Fin 2) * 256 + 1 * q.val = q.val; rw [e1]; omega
  rw [e]
  refine extractStridedSlice_apply _ _ _ _ _ fun a => ?_
  match a with
  | ⟨0, _⟩ => show 128 + k.val = 128 + k.val; rfl
  | ⟨1, _⟩ => show q.val = 0 + q.val; omega

/-- The bias row, resident. -/
theorem blk_bias (c : Dev nD) (t : Fin cfg0.N) (q : Fin 256) :
    (iblk m c 5 t : Vec Ideal S1x256 .f32) (ix2 (0 : Fin 1) q) = (m ((c : Thread nD τ).loc main_arg2) : S256.Idx → EReal) (ix1 q) := by
  obtain ⟨-, -, -, -, e0, e1, -⟩ := idx_resident t
  show (V m c main_v19 : S1x256.Idx → EReal) (((cfg0.win 5).blk t).view.emb (ix2 (0 : Fin 1) q)) = _
  rw [V_bias]
  have e : ((cfg0.win 5).blk t).view.emb (ix2 (0 : Fin 1) q) = (ix2 (0 : Fin 1) q : S1x256.Idx) := by
    funext a; apply Fin.ext
    match a with
    | ⟨0, _⟩ => show win0_5.index t (0 : Fin 2) * 1 + 1 * 0 = 0; rw [e0]
    | ⟨1, _⟩ => show win0_5.index t (1 : Fin 2) * 256 + 1 * q.val = q.val; rw [e1]; omega
  rw [e]
  exact shapeCast_a_1a_apply _ _ 0 q

/-- The scale row, resident. -/
theorem blk_scale (c : Dev nD) (t : Fin cfg0.N) (q : Fin 256) :
    (iblk m c 6 t : Vec Ideal S1x256 .f32) (ix2 (0 : Fin 1) q) = (m ((c : Thread nD τ).loc main_arg3) : S256.Idx → EReal) (ix1 q) := by
  obtain ⟨-, -, -, -, -, -, e0, e1, -⟩ := idx_resident t
  show (V m c main_v20 : S1x256.Idx → EReal) (((cfg0.win 6).blk t).view.emb (ix2 (0 : Fin 1) q)) = _
  rw [V_scale]
  have e : ((cfg0.win 6).blk t).view.emb (ix2 (0 : Fin 1) q) = (ix2 (0 : Fin 1) q : S1x256.Idx) := by
    funext a; apply Fin.ext
    match a with
    | ⟨0, _⟩ => show win0_6.index t (0 : Fin 2) * 1 + 1 * 0 = 0; rw [e0]
    | ⟨1, _⟩ => show win0_6.index t (1 : Fin 2) * 256 + 1 * q.val = q.val; rw [e1]; omega
  rw [e]
  exact shapeCast_a_1a_apply _ _ 0 q

/-- The offset row, resident. -/
theorem blk_offset (c : Dev nD) (t : Fin cfg0.N) (q : Fin 256) :
    (iblk m c 7 t : Vec Ideal S1x256 .f32) (ix2 (0 : Fin 1) q) = (m ((c : Thread nD τ).loc main_arg4) : S256.Idx → EReal) (ix1 q) := by
  obtain ⟨-, -, -, -, -, -, -, -, e0, e1⟩ := idx_resident t
  show (V m c main_v21 : S1x256.Idx → EReal) (((cfg0.win 7).blk t).view.emb (ix2 (0 : Fin 1) q)) = _
  rw [V_offset]
  have e : ((cfg0.win 7).blk t).view.emb (ix2 (0 : Fin 1) q) = (ix2 (0 : Fin 1) q : S1x256.Idx) := by
    funext a; apply Fin.ext
    match a with
    | ⟨0, _⟩ => show win0_7.index t (0 : Fin 2) * 1 + 1 * 0 = 0; rw [e0]
    | ⟨1, _⟩ => show win0_7.index t (1 : Fin 2) * 256 + 1 * q.val = q.val; rw [e1]; omega
  rw [e]
  exact shapeCast_a_1a_apply _ _ 0 q

/-! ## What a point writes back, the cover, the array after the run -/

/-- What point t writes back is block t of the reference's result as a function of the argument arrays. -/
theorem flushed_eq (c : Dev nD) (t : Fin cfg0.N) :
    (dats m 0 c).flushed 8 t = ((cfg0.win 8).blk t).view.read (Elt Ideal) (result m c) := by
  rw [flushed8]
  funext j
  obtain ⟨p, q, rfl⟩ : ∃ (p : Fin 2000) (q : Fin 256), j = ix2 p q := ⟨j 0, j 1, eq_ix2 j⟩
  have ht : t.val < 50 := lt_of_lt_of_eq t.isLt (show cfg0.N = 50 from N_0)
  have hp : p.val < 2000 := p.isLt
  have hr : (⟨2000 * t.val + p.val, by omega⟩ : Fin 100000).val = 2000 * t.val + p.val := rfl
  show out0_8 (iblk m c 0 t) (iblk m c 1 t) (iblk m c 2 t) (iblk m c 3 t) (iblk m c 4 t) (iblk m c 5 t) (iblk m c 6 t) (iblk m c 7 t) (ix2 p q)
    = result m c (((cfg0.win 8).blk t).view.emb (ix2 p q))
  rw [emb_out t p q ⟨2000 * t.val + p.val, by omega⟩ hr]
  exact Cert.SageRows.entry_eq _ _ _ _ _ _ _ (iblk m c 0 t) (iblk m c 1 t) (iblk m c 2 t) (iblk m c 3 t) (iblk m c 4 t) (iblk m c 5 t)
    (iblk m c 6 t) (iblk m c 7 t) ⟨2000 * t.val + p.val, by omega⟩ p q
    (fun k => blk_feat m c t p k _ hr) (fun k => blk_sum m c t p k _ hr) (blk_deg m c t p _ hr)
    (fun k q' => blk_w1 m c t k q') (fun k q' => blk_w2 m c t k q') (fun q' => blk_bias m c t q') (fun q' => blk_scale m c t q')
    (fun q' => blk_offset m c t q')

/-- An index of the result array is in point t's block iff each coordinate is in the block's range on its axis. -/
theorem mem_blk (t : Fin cfg0.N) (i : S100000x256.Idx) :
    i ∈ ((cfg0.win 8).blk t).view.set ↔ ∀ a : Fin 2, win0_8.index t a * S2000x256.size a ≤ (i a).val ∧ (i a).val < win0_8.index t a * S2000x256.size a + S2000x256.size a := by
  show i ∈ ((View.whole main_v22).slice (win0_8.rect t)).set ↔ _
  rw [View.set_slice_whole, Rect.mem_set_unit]
  exact Iff.rfl

/-- Every row is in some point's block: row i in block i / 2000. -/
theorem cover (i : S100000x256.Idx) : ∃ t : Fin cfg0.N, (cfg0.win 8).flush t = true ∧ i ∈ ((cfg0.win 8).blk t).view.set := by
  have hi0 : (i 0).val < 100000 := (i 0).isLt
  have hi1 : (i 1).val < 256 := (i 1).isLt
  have hN : cfg0.N = 50 := N_0
  refine ⟨⟨(i 0).val / 2000, by rw [hN]; omega⟩, flush0_8 _, ?_⟩
  rw [mem_blk]
  obtain ⟨-, -, -, -, -, -, e0, e1⟩ := idx_rows ⟨(i 0).val / 2000, by rw [hN]; omega⟩
  intro a
  match a with
  | ⟨0, _⟩ =>
    show win0_8.index _ (0 : Fin 2) * 2000 ≤ (i 0).val ∧ (i 0).val < win0_8.index _ (0 : Fin 2) * 2000 + 2000
    rw [e0]; show (i 0).val / 2000 * 2000 ≤ (i 0).val ∧ (i 0).val < (i 0).val / 2000 * 2000 + 2000; omega
  | ⟨1, _⟩ =>
    show win0_8.index _ (1 : Fin 2) * 256 ≤ (i 1).val ∧ (i 1).val < win0_8.index _ (1 : Fin 2) * 256 + 256
    rw [e1]; omega

/-- The result array after the run is the reference's result as a function of the argument arrays. -/
theorem final (c : Dev nD) : (dats m 0 c).arrAt 8 cfg0.N = result m c :=
  (dats m 0 c).arrAt_eq_of_cover 8 (result m c) (fun t _ => flushed_eq m c t) cover

/-- The run, read: the result array at that function, the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Hand

end
-- ==== Proof.lean ====
/-
  A mean-aggregation graph layer followed by layer normalisation, kernel against reference, on the extended reals.

  Both programs first run the same host stage: gather each edge's source features, scatter-add them into the destination
  nodes (S, the neighbours' summed features) and scatter-add ones (the in-degree d). For node r with features x = feat(r, ·)
  the hidden row is

      h(r, k) = max( Σ_c x(c) · W(c, k) + Σ_c (S(r, c) / max(d(r), 1)) · W(128 + c, k) + b(k), 0 ),

  and the result is its layer normalisation over the 256 columns,

      out(r, q) = (h(r, q) − μ_r) · (σ²_r + ε)^(−1/2) · γ(q) + β(q),   μ_r = (Σ_k h(r, k)) / 256,  σ²_r = (Σ_k (h(r, k) − μ_r)²) / 256.

  The kernel computes rows 2000·t … 2000·t + 1999 at grid point t, with the product split into the two halves of W; the reference
  joins x and S / max(d, 1) into 256 columns and takes one product with W. The two agree because a sum over 256 columns is
  the sum over the first 128 plus the sum over the last 128 — associativity and commutativity of addition, which hold on the
  extended reals without any finiteness — and every other operation is the same exact operation on both sides (a change of
  float format is the identity on exact values; division, maximum and the inverse square root are one function each). The
  shared stage is never opened: S and d enter both sides as the same terms of the arguments.

  `Cert.SageRows` (Hidden, Norm) reads both programs entry by entry; `Cert.KernelIdeal.Hand` (Blocks) carries the kernel's blocks
  to its result array, which ends holding the reference's result as a function of the arguments. The three frames are the
  programs' runs with the results dropped; the idealization rewrote nothing, so `preserves` has nothing to say.
-/
import proofs.«160424_j11656541241918_2_alg».proof.Defs
import proofs.«160424_j11656541241918_2_alg».proof.Proof.Gen.Kernel
import proofs.«160424_j11656541241918_2_alg».proof.Proof.Gen.Kernel.Skeleton
import proofs.«160424_j11656541241918_2_alg».proof.Proof.Gen.Kernel.Launch
import proofs.«160424_j11656541241918_2_alg».proof.Proof.Gen.Kernel.Points
import proofs.«160424_j11656541241918_2_alg».proof.Proof.Gen.Kernel.Frame
import proofs.«160424_j11656541241918_2_alg».proof.Proof.Gen.KernelIdeal
import proofs.«160424_j11656541241918_2_alg».proof.Proof.Gen.KernelIdeal.Skeleton
import proofs.«160424_j11656541241918_2_alg».proof.Proof.Gen.KernelIdeal.Launch
import proofs.«160424_j11656541241918_2_alg».proof.Proof.Gen.KernelIdeal.Points
import proofs.«160424_j11656541241918_2_alg».proof.Proof.Gen.KernelIdeal.Frame
import proofs.«160424_j11656541241918_2_alg».proof.Proof.Gen.KernelIdeal.Value
import proofs.«160424_j11656541241918_2_alg».proof.Proof.Gen.ReferenceIdeal
import proofs.«160424_j11656541241918_2_alg».proof.Proof.Gen.ReferenceIdeal.Run
import proofs.«160424_j11656541241918_2_alg».proof.Proof.Gen.ReferenceIdeal.Read
import proofs.«160424_j11656541241918_2_alg».proof.Proof.Gen.Pre_finite_inputs
import proofs.«160424_j11656541241918_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result array: the kernel's is the reference's
    result as a function of the kernel's arguments (`Cert.KernelIdeal.Hand.run`), and the reference's run states its own at its
    arguments, which are the kernel's. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v48_eq, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
